-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S8192x4096 : Shape := ⟨2, ![8192, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S8192x4096 : S_.BroadcastsInDim S8192x4096 (![] : Fin 0 → Fin S8192x4096.rank)
  reducesTo_S8192x4096_S_d0_1 : S8192x4096.ReducesTo [0, 1] S_

variable [Facts]

def fn {F : FTy → Type} [FloatOps F] (main_arg0 : FVec F S4096x4096 .f32) (main_arg1 : FVec F S8192x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  main_v8
-- ==== Kernel.lean ====
abbrev S4096x4096 : Shape := ⟨2, ![4096, 4096]⟩
abbrev S8192x4096 : Shape := ⟨2, ![8192, 4096]⟩
abbrev S_ : Shape := ⟨0, ![]⟩
abbrev S4096 : Shape := ⟨1, ![4096]⟩
abbrev S4096x1 : Shape := ⟨2, ![4096, 1]⟩
abbrev S8192 : Shape := ⟨1, ![8192]⟩
abbrev S1x8192 : Shape := ⟨2, ![1, 8192]⟩
abbrev S4096x8192 : Shape := ⟨2, ![4096, 8192]⟩
abbrev S512x4096 : Shape := ⟨2, ![512, 4096]⟩
abbrev S1024x4096 : Shape := ⟨2, ![1024, 4096]⟩
abbrev S512x1 : Shape := ⟨2, ![512, 1]⟩
abbrev S1x1024 : Shape := ⟨2, ![1, 1024]⟩
abbrev S512x1024 : Shape := ⟨2, ![512, 1024]⟩

abbrev nBuf : Space → Nat
  | .hbm => 29
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S8192x4096, .f32⟩
  | .hbm, ⟨2, _⟩ => ⟨S4096x4096, .bf16⟩
  | .hbm, ⟨3, _⟩ => ⟨S8192x4096, .bf16⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S4096x1, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S8192, .f32⟩
  | .hbm, ⟨23, _⟩ => ⟨S8192, .f32⟩
  | .hbm, ⟨24, _⟩ => ⟨S_, .f32⟩
  | .hbm, ⟨25, _⟩ => ⟨S8192, .f32⟩
  | .hbm, ⟨26, _⟩ => ⟨S8192, .f32⟩
  | .hbm, ⟨27, _⟩ => ⟨S1x8192, .f32⟩
  | .hbm, ⟨28, _⟩ => ⟨S4096x8192, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S1024x4096, .bf16⟩
  | .local _ .vmem, ⟨4, _⟩ => ⟨S512x1, .f32⟩
  | .local _ .vmem, ⟨5, _⟩ => ⟨S512x1, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  reducesTo_S4096x4096_S4096_d1 : S4096x4096.ReducesTo [1] S4096
  h_S_ : 0 < S_.numel
  bcast_S4096_S4096x1_0 : S4096.BroadcastsInDim S4096x1 (![0] : Fin 1 → Fin S4096x1.rank)
  reducesTo_S8192x4096_S8192_d1 : S8192x4096.ReducesTo [1] S8192
  bcast_S_S4096x1 : S_.BroadcastsInDim S4096x1 (![] : Fin 0 → Fin S4096x1.rank)
  bcast_S_S8192 : S_.BroadcastsInDim S8192 (![] : Fin 0 → Fin S8192.rank)
  shapeCasts_S8192_S1x8192 : S8192.ShapeCasts S1x8192
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S512x1_S512x1024 : S512x1.Broadcasts S512x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .bf16 = 32 ∨ (Rect.block (s := S4096x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S8192x4096.size a
  hwx0_1 : ∀ i : grid0.Coords, EltTy.bits .bf16 = 32 ∨ (Rect.block (s := S8192x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S4096x8192.size a
  hwx0_4 : ∀ i : grid0.Coords, EltTy.bits .f32 = 32 ∨ (Rect.block (s := S4096x8192) S512x1024.size (cc0_transform_4 i) (hinb0_4 i)).WholeWords (EltTy.packing .f32)

variable [Facts₀]

def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v20) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S8192x4096 : Shape := ⟨2, ![8192, 4096]⟩
abbrev S_ : Shape := ⟨0, ![]⟩
abbrev S4096 : Shape := ⟨1, ![4096]⟩
abbrev S4096x1 : Shape := ⟨2, ![4096, 1]⟩
abbrev S8192 : Shape := ⟨1, ![8192]⟩
abbrev S4096x8192 : Shape := ⟨2, ![4096, 8192]⟩
abbrev S1x8192 : Shape := ⟨2, ![1, 8192]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S8192x4096, .f32⟩
  | .hbm, ⟨2, _⟩ => ⟨S4096x4096, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S8192x4096, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S4096x8192, .f32⟩
  | .hbm, ⟨18, _⟩ => ⟨S1x8192, .f32⟩
  | .hbm, ⟨19, _⟩ => ⟨S4096x8192, .f32⟩
  | .hbm, ⟨20, _⟩ => ⟨S4096x8192, .f32⟩
  | .hbm, ⟨21, _⟩ => ⟨S4096x8192, .f32⟩
  | .hbm, ⟨22, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  reducesTo_S8192x4096_S8192_d1 : S8192x4096.ReducesTo [1] S8192
  bcast_S_S8192 : S_.BroadcastsInDim S8192 (![] : Fin 0 → Fin S8192.rank)
  bcast_S8192_S1x8192_1 : S8192.BroadcastsInDim S1x8192 (![1] : Fin 1 → Fin S1x8192.rank)
  bcast_S4096x1_S4096x8192_0_1 : S4096x1.BroadcastsInDim S4096x8192 (![0, 1] : Fin 2 → Fin S4096x8192.rank)
  bcast_S1x8192_S4096x8192_0_1 : S1x8192.BroadcastsInDim S4096x8192 (![0, 1] : Fin 2 → Fin S4096x8192.rank)
  dot_S4096x4096_S8192x4096_S4096x8192_1_1_0_0_n_n_wf : DotDims.WF S4096x4096 S8192x4096 S4096x8192 [1] [1] [0] [0] [] []

variable [Facts₀]

def dot_S4096x4096_S8192x4096_S4096x8192_1_1_0_0_n_n : DotDims S4096x4096 S8192x4096 S4096x8192 where
  lhsContracting := [1]
  rhsContracting := [1]
  lhsNonContracting := [0]
  rhsNonContracting := [0]
  lhsBatch := []
  rhsBatch := []
  wf := dot_S4096x4096_S8192x4096_S4096x8192_1_1_0_0_n_n_wf

class Facts : Prop extends Facts₀ where

variable [Facts]
-- ==== Proof.BlockProduct.lean ====
/-
  What the kernel body stores, read at one entry of its `[512, 1024]` output block.

  The body takes a `[512, 4096]` block `a` of rows of `x`, a `[1024, 4096]` block `b` of rows of `w`, a column
  `u : [512, 1]` and a row `v : [1, 1024]`, contracts the shared last axis of `a` and `b` on the matrix unit into a
  zero accumulator, and multiplies the product entrywise by the outer product of `u` and `v`. At the ideal values the
  entry `(p, q)` is therefore `(∑ₖ a(p, k) · b(q, k)) · (u(p, 0) · v(0, q))`.
-/
import proofs.«158054_j86062554677874_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx

/-- An `[a, 1]` column broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The contraction's index maps: entry `(p, q)` of the product reads row `p` of the left block and row `q` of the
    right block, both at the contracted column. -/
theorem lhs_row (i : S512x1024.Idx) (κ : dot_S512x4096_S1024x4096_S512x1024_1_1_0_0_n_n.contr.Idx) :
    (dot_S512x4096_S1024x4096_S512x1024_1_1_0_0_n_n.lhsIdx i κ 0).val = (i 0).val := by
  unfold DotDims.lhsIdx
  rw [dif_neg (show ¬(0 : Fin S512x4096.rank) ∈ dot_S512x4096_S1024x4096_S512x1024_1_1_0_0_n_n.lhsBatch by decide),
    dif_pos (show (0 : Fin S512x4096.rank) ∈ dot_S512x4096_S1024x4096_S512x1024_1_1_0_0_n_n.lhsNonContracting by decide)]
  rfl
theorem lhs_col (i : S512x1024.Idx) (κ : dot_S512x4096_S1024x4096_S512x1024_1_1_0_0_n_n.contr.Idx) :
    (dot_S512x4096_S1024x4096_S512x1024_1_1_0_0_n_n.lhsIdx i κ 1).val = (κ ⟨0, by decide⟩).val :=
  dot_S512x4096_S1024x4096_S512x1024_1_1_0_0_n_n.lhsIdx_val_of_single rfl i κ
theorem rhs_row (i : S512x1024.Idx) (κ : dot_S512x4096_S1024x4096_S512x1024_1_1_0_0_n_n.contr.Idx) :
    (dot_S512x4096_S1024x4096_S512x1024_1_1_0_0_n_n.rhsIdx i κ 0).val = (i 1).val := by
  unfold DotDims.rhsIdx
  rw [dif_neg (show ¬(0 : Fin S1024x4096.rank) ∈ dot_S512x4096_S1024x4096_S512x1024_1_1_0_0_n_n.rhsBatch by decide),
    dif_pos (show (0 : Fin S1024x4096.rank) ∈ dot_S512x4096_S1024x4096_S512x1024_1_1_0_0_n_n.rhsNonContracting by decide)]
  rfl
theorem rhs_col (i : S512x1024.Idx) (κ : dot_S512x4096_S1024x4096_S512x1024_1_1_0_0_n_n.contr.Idx) :
    (dot_S512x4096_S1024x4096_S512x1024_1_1_0_0_n_n.rhsIdx i κ 1).val = (κ ⟨0, by decide⟩).val :=
  dot_S512x4096_S1024x4096_S512x1024_1_1_0_0_n_n.rhsIdx_val_of_single rfl i κ

/-- The matrix unit's product of the two blocks into a zero accumulator, at `(p, q)`: `∑ₖ a(p, k) · b(q, k)`. -/
theorem product_apply (a : FVec Ideal S512x4096 .bf16) (b : FVec Ideal S1024x4096 .bf16) (p : Fin 512) (q : Fin 1024) :
    matmul (F := Ideal) dot_S512x4096_S1024x4096_S512x1024_1_1_0_0_n_n none a b (constant S512x1024 .f32 0x00000000#32) (ix2 p q)
      = ∑ k : Fin 4096, a (ix2 p k) * b (ix2 q k) := by
  simp only [matmul]
  rw [Ideal.matmul_constant_zero_apply,
    ← Equiv.sum_comp (contrEquiv1 dot_S512x4096_S1024x4096_S512x1024_1_1_0_0_n_n 4096 rfl rfl).symm]
  refine Finset.sum_congr rfl fun k _ => ?_
  have hk := contrEquiv1_symm_val dot_S512x4096_S1024x4096_S512x1024_1_1_0_0_n_n 4096 rfl rfl k
  have el : dot_S512x4096_S1024x4096_S512x1024_1_1_0_0_n_n.lhsIdx (ix2 p q)
      ((contrEquiv1 dot_S512x4096_S1024x4096_S512x1024_1_1_0_0_n_n 4096 rfl rfl).symm k) = ix2 p k :=
    funext fun ax => Fin.ext (by
      match ax with
      | ⟨0, _⟩ => exact lhs_row _ _
      | ⟨1, _⟩ => exact (lhs_col _ _).trans hk)
  have er : dot_S512x4096_S1024x4096_S512x1024_1_1_0_0_n_n.rhsIdx (ix2 p q)
      ((contrEquiv1 dot_S512x4096_S1024x4096_S512x1024_1_1_0_0_n_n 4096 rfl rfl).symm k) = ix2 q k :=
    funext fun ax => Fin.ext (by
      match ax with
      | ⟨0, _⟩ => exact rhs_row _ _
      | ⟨1, _⟩ => exact (rhs_col _ _).trans hk)
  rw [el, er]

/-- THE STORED VALUE at `(p, q)`: the block product there times `u(p, 0) · v(0, q)`. -/
theorem stored_apply (a : Vec Ideal S512x4096 .bf16) (b : Vec Ideal S1024x4096 .bf16) (u : Vec Ideal S512x1 .f32)
    (v : Vec Ideal S1x1024 .f32) (p : Fin 512) (q : Fin 1024) :
    k0_pay1 (F := Ideal) a b u v (ix2 p q)
      = (∑ k : Fin 4096, a (ix2 p k) * b (ix2 q k)) * (u (ix2 p (0 : Fin 1)) * v (ix2 (0 : Fin 1) q)) := by
  unfold k0_pay1
  simp only [shapeCast_self]
  rw [mulf_apply, mulf_apply, product_apply, broadcastTo_a1_ab_apply, broadcastTo_1b_ab_apply]

/-- The same at any index `y` of the block, by its two coordinates. -/
theorem stored_at (a : Vec Ideal S512x4096 .bf16) (b : Vec Ideal S1024x4096 .bf16) (u : Vec Ideal S512x1 .f32)
    (v : Vec Ideal S1x1024 .f32) (y : S512x1024.Idx) :
    k0_pay1 (F := Ideal) a b u v y
      = (∑ k : Fin 4096, a (ix2 (y 0) k) * b (ix2 (y 1) k)) * (u (ix2 (y 0) (0 : Fin 1)) * v (ix2 (0 : Fin 1) (y 1))) := by
  obtain ⟨p, q, rfl⟩ : ∃ (p : Fin 512) (q : Fin 1024), y = ix2 p q := ⟨y 0, y 1, eq_ix2 y⟩
  exact stored_apply a b u v p q

/-! ## The whole array the blocks are cut from -/

/-- For whole arrays `X : [4096, 4096]`, `W : [8192, 4096]`, a column `U : [4096, 1]` and a row `R : [1, 8192]`: the
    `[4096, 8192]` array whose entry `(r, c)` is `(∑ₖ X(r, k) · W(c, k)) · (U(r, 0) · R(0, c))`. -/
def scaledProduct (X : S4096x4096.Idx → EReal) (W : S8192x4096.Idx → EReal) (U : S4096x1.Idx → EReal)
    (R : S1x8192.Idx → EReal) : S4096x8192.Idx → EReal :=
  fun i => (∑ k : Fin 4096, X (ix2 (i 0) k) * W (ix2 (i 1) k)) * (U (ix2 (i 0) (0 : Fin 1)) * R (ix2 (0 : Fin 1) (i 1)))

/-- When the four blocks are the arrays read at the rows and columns the output index `i` names — row `y 0` of `a` and
    of `u` is row `i 0` of `X` and of `U`, row `y 1` of `b` is row `i 1` of `W`, column `y 1` of `v` is column `i 1`
    of `R` — the stored value at `y` is the whole-array function at `i`. -/
theorem stored_eq_scaledProduct (X : S4096x4096.Idx → EReal) (W : S8192x4096.Idx → EReal) (U : S4096x1.Idx → EReal)
    (R : S1x8192.Idx → EReal) (a : Vec Ideal S512x4096 .bf16) (b : Vec Ideal S1024x4096 .bf16) (u : Vec Ideal S512x1 .f32)
    (v : Vec Ideal S1x1024 .f32) (y : S512x1024.Idx) (i : S4096x8192.Idx)
    (ha : ∀ k : Fin 4096, a (ix2 (y 0) k) = X (ix2 (i 0) k)) (hb : ∀ k : Fin 4096, b (ix2 (y 1) k) = W (ix2 (i 1) k))
    (hu : u (ix2 (y 0) (0 : Fin 1)) = U (ix2 (i 0) (0 : Fin 1))) (hv : v (ix2 (0 : Fin 1) (y 1)) = R (ix2 (0 : Fin 1) (i 1))) :
    k0_pay1 (F := Ideal) a b u v y = scaledProduct X W U R i := by
  rw [stored_at, hu, hv]
  unfold scaledProduct
  exact congrArg (· * _) (Finset.sum_congr rfl fun k _ => by rw [ha k, hb k])

end Cert.KernelIdeal.Block

end
-- ==== Proof.CosineBlocks.lean ====
/-
  From the kernel's blocks to its whole output array.

  Grid point `t` of the 8 × 8 grid writes the `[512, 1024]` output block with block index `(t₁, t₀)`; its inputs are block
  `t₁` of the rows of the left array and of the column, and block `t₀` of the rows of the right array and of the columns
  of the row. So what the point writes back is the block of ONE whole-array function, `scaledProduct` of the four arrays the
  kernel finds, and since the 64 output blocks tile the `[4096, 8192]` array, the array ends holding that function.
-/
import proofs.«158054_j86062554677874_2_alg».proof.Proof.Gen.KernelIdeal.Value
import proofs.«158054_j86062554677874_2_alg».proof.Proof.BlockProduct

noncomputable section

namespace Cert.KernelIdeal.Blocks

open Cert.KernelIdeal Cert.KernelIdeal.Gen Cert.KernelIdeal.Block Idealize.ShloMosaic Idealize.ShloMosaic.TcCoe
open Idealize.SL.Sem Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps, decided over the 64 grid points: the left array and the column move with the output's
    block row, the right array and the row with the output's block column, and every other block index is zero. -/
theorem index_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2) :=
  (by decide +kernel : ∀ t : Fin grid0.N, _)

/-- Every output block index `(q₀, q₁)` with `q₀, q₁ < 8` is some grid point's. -/
theorem index_onto : ∀ (q0 : Fin 8) (q1 : Fin 8), ∃ t : Fin cfg0.N, win0_4.index t = ![q0.val, q1.val] :=
  (by decide +kernel : ∀ (q0 : Fin 8) (q1 : Fin 8), ∃ t : Fin grid0.N, win0_4.index t = ![q0.val, q1.val])

/-! ## Each input block is its array read at the block's offset -/

theorem left_read (c : Dev nD) (t : Fin cfg0.N) (y : S512x4096.Idx) (i : S4096x4096.Idx)
    (h0 : win0_0.index t (0 : Fin 2) * 512 + 1 * (y 0).val = (i 0).val)
    (h1 : win0_0.index t (1 : Fin 2) * 4096 + 1 * (y 1).val = (i 1).val) :
    iblk m c 0 t y = V m c main_v0 i := by
  show V m c main_v0 (((cfg0.win 0).blk t).view.emb y) = V m c main_v0 i
  refine congrArg (V m c main_v0) (funext fun a => Fin.ext ?_)
  match a with
  | ⟨0, _⟩ => exact h0
  | ⟨1, _⟩ => exact h1

theorem right_read (c : Dev nD) (t : Fin cfg0.N) (y : S1024x4096.Idx) (i : S8192x4096.Idx)
    (h0 : win0_1.index t (0 : Fin 2) * 1024 + 1 * (y 0).val = (i 0).val)
    (h1 : win0_1.index t (1 : Fin 2) * 4096 + 1 * (y 1).val = (i 1).val) :
    iblk m c 1 t y = V m c main_v1 i := by
  show V m c main_v1 (((cfg0.win 1).blk t).view.emb y) = V m c main_v1 i
  refine congrArg (V m c main_v1) (funext fun a => Fin.ext ?_)
  match a with
  | ⟨0, _⟩ => exact h0
  | ⟨1, _⟩ => exact h1

theorem column_read (c : Dev nD) (t : Fin cfg0.N) (y : S512x1.Idx) (i : S4096x1.Idx)
    (h0 : win0_2.index t (0 : Fin 2) * 512 + 1 * (y 0).val = (i 0).val)
    (h1 : win0_2.index t (1 : Fin 2) * 1 + 1 * (y 1).val = (i 1).val) :
    iblk m c 2 t y = V m c main_v14 i := by
  show V m c main_v14 (((cfg0.win 2).blk t).view.emb y) = V m c main_v14 i
  refine congrArg (V m c main_v14) (funext fun a => Fin.ext ?_)
  match a with
  | ⟨0, _⟩ => exact h0
  | ⟨1, _⟩ => exact h1

theorem row_read (c : Dev nD) (t : Fin cfg0.N) (y : S1x1024.Idx) (i : S1x8192.Idx)
    (h0 : win0_3.index t (0 : Fin 2) * 1 + 1 * (y 0).val = (i 0).val)
    (h1 : win0_3.index t (1 : Fin 2) * 1024 + 1 * (y 1).val = (i 1).val) :
    iblk m c 3 t y = V m c main_v19 i := by
  show V m c main_v19 (((cfg0.win 3).blk t).view.emb y) = V m c main_v19 i
  refine congrArg (V m c main_v19) (funext fun a => Fin.ext ?_)
  match a with
  | ⟨0, _⟩ => exact h0
  | ⟨1, _⟩ => exact h1

/-! ## What a point writes back -/

/-- WHAT POINT `t` WRITES BACK is block `t` of `scaledProduct` of the four arrays the kernel finds. -/
theorem flushed_eq (c : Dev nD) (t : Fin cfg0.N) :
    (dats m 0 c).flushed 4 t = ((cfg0.win 4).blk t).view.read (Elt Ideal)
      (scaledProduct (V m c main_v0) (V m c main_v1) (V m c main_v14) (V m c main_v19)) := by
  rw [Value.flushed4]
  unfold out0_4
  rw [View.canon_unit_zero zero_offsets]
  simp only [View.ld_unit_zero (S := S512x4096) zero_offsets, View.ld_unit_zero (S := S1024x4096) zero_offsets,
    View.ld_unit_zero (S := S512x1) zero_offsets, View.ld_unit_zero (S := S1x1024) zero_offsets]
  obtain ⟨e0, e1, e2, e3, e4, e5, e6, e7⟩ := index_facts t
  funext j
  show k0_pay1 (iblk m c 0 t) (iblk m c 1 t) (iblk m c 2 t) (iblk m c 3 t) j
    = scaledProduct (V m c main_v0) (V m c main_v1) (V m c main_v14) (V m c main_v19) (((cfg0.win 4).blk t).view.emb j)
  have r0 : ((((cfg0.win 4).blk t).view.emb j) 0).val = win0_4.index t (0 : Fin 2) * 512 + 1 * (j 0).val := rfl
  have r1 : ((((cfg0.win 4).blk t).view.emb j) 1).val = win0_4.index t (1 : Fin 2) * 1024 + 1 * (j 1).val := rfl
  refine stored_eq_scaledProduct _ _ _ _ _ _ _ _ j _ (fun k => ?_) (fun k => ?_) ?_ ?_
  · refine left_read m c t _ _ ?_ ?_
    · show win0_0.index t (0 : Fin 2) * 512 + 1 * (j 0).val = ((((cfg0.win 4).blk t).view.emb j) 0).val
      rw [r0, e0]
    · show win0_0.index t (1 : Fin 2) * 4096 + 1 * k.val = k.val
      rw [e1]; omega
  · refine right_read m c t _ _ ?_ ?_
    · show win0_1.index t (0 : Fin 2) * 1024 + 1 * (j 1).val = ((((cfg0.win 4).blk t).view.emb j) 1).val
      rw [r1, e2]
    · show win0_1.index t (1 : Fin 2) * 4096 + 1 * k.val = k.val
      rw [e3]; omega
  · refine column_read m c t _ _ ?_ ?_
    · show win0_2.index t (0 : Fin 2) * 512 + 1 * (j 0).val = ((((cfg0.win 4).blk t).view.emb j) 0).val
      rw [r0, e4]
    · show win0_2.index t (1 : Fin 2) * 1 + 1 * 0 = 0
      rw [e5]
  · refine row_read m c t _ _ ?_ ?_
    · show win0_3.index t (0 : Fin 2) * 1 + 1 * 0 = 0
      rw [e6]
    · show win0_3.index t (1 : Fin 2) * 1024 + 1 * (j 1).val = ((((cfg0.win 4).blk t).view.emb j) 1).val
      rw [r1, e7]

/-! ## The cover and the array after the run -/

/-- An index of the output array is in point `t`'s block iff each coordinate is in the block's range on its axis. -/
theorem mem_blk (t : Fin cfg0.N) (i : S4096x8192.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v20).slice (win0_4.rect t)).set ↔ _
  rw [View.set_slice_whole, Rect.mem_set_unit]
  exact Iff.rfl

/-- Every index of the output array is in some writing point's block: the block of row `i₀ / 512` and column `i₁ / 1024`. -/
theorem covered (i : S4096x8192.Idx) :
    ∃ t : Fin cfg0.N, (cfg0.win 4).flush t = true ∧ i ∈ ((cfg0.win 4).blk t).view.set := by
  have hi0 : (i 0).val < 4096 := (i 0).isLt
  have hi1 : (i 1).val < 8192 := (i 1).isLt
  obtain ⟨t, ht⟩ := index_onto ⟨(i 0).val / 512, by omega⟩ ⟨(i 1).val / 1024, by omega⟩
  have q0 : win0_4.index t (0 : Fin 2) = (i 0).val / 512 := congrFun ht 0
  have q1 : win0_4.index t (1 : Fin 2) = (i 1).val / 1024 := congrFun ht 1
  refine ⟨t, flush0_4 t, ?_⟩
  rw [mem_blk]
  intro a
  match a with
  | ⟨0, _⟩ =>
    show win0_4.index t (0 : Fin 2) * 512 ≤ (i 0).val ∧ (i 0).val < win0_4.index t (0 : Fin 2) * 512 + 512
    omega
  | ⟨1, _⟩ =>
    show win0_4.index t (1 : Fin 2) * 1024 ≤ (i 1).val ∧ (i 1).val < win0_4.index t (1 : Fin 2) * 1024 + 1024
    omega

/-- THE OUTPUT ARRAY after the run is `scaledProduct` of the four arrays the kernel finds. -/
theorem final (c : Dev nD) :
    (dats m 0 c).arrAt 4 cfg0.N = scaledProduct (V m c main_v0) (V m c main_v1) (V m c main_v14) (V m c main_v19) :=
  (dats m 0 c).arrAt_eq_of_cover 4 _ (fun t _ => flushed_eq m c t) covered

/-- The kernel program's run, with its result named and its arguments unchanged. -/
theorem run : θ_run defs (onTc (τ := τ) (main (F := Ideal))) ⟨m, fun _ => 0, ρ⟩ fun r => ∀ c : Dev nD,
      r.2.mem ((c : Thread nD τ).loc main_v20)
        = scaledProduct (V m c main_v0) (V m c main_v1) (V m c main_v14) (V m c main_v19)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Blocks

end
-- ==== Proof.CosineSpec.lean ====
/-
  Cosine similarity of every row of `x` with every row of `w`, on the extended reals, in the two arrangements the
  programs compute it, and the law that joins them.

  For a row `r` of `x : [4096, 4096]` and a row `c` of `w : [8192, 4096]`:
    * the dot product `d(r, c) = ∑ₖ x(r, k) · w(c, k)`;
    * the clamped norm `N(a, r) = max (√(0 + ∑ₖ a(r, k)²)) ε`, with `ε` the f32 number nearest to 1e-8;
    * the quotient form `d(r, c) / (N(x, r) · N(w, c))`;
    * the scaled form `d(r, c) · ((1 / N(x, r)) · (1 / N(w, c)))`.
  When every entry of `x` and `w` is a real number, each clamped norm is a positive real (at least `ε`), so
  `1 / N` is the real reciprocal, the product of the two reciprocals is the reciprocal of the product, and dividing an
  extended real by a nonzero real is multiplying by its reciprocal: the two forms agree.
-/
import Idealize.ShloMosaic.PureOps.Ideal
import Idealize.ShloMosaic.PureOps.Ideal.Laws
import Idealize.ShloMosaic.Lib.ValueIdx

noncomputable section

namespace Cert.Cosine

open Idealize.ShloMosaic Idealize.ShloMosaic.ValueIdx

/-! ## The literals -/

/-- The f32 pattern of `1.0` denotes the real number one. -/
theorem one_real : Ideal.ofBits .f32 0x3F800000#32 = ((1 : ℝ) : EReal) := by
  simp [Ideal.ofBits, Ideal.ieee, -EReal.coe_mul]
  norm_num

/-- The f32 pattern of `1e-8` (rounded) denotes a positive real. -/
theorem eps_real : ∃ e : ℝ, 0 < e ∧ Ideal.ofBits .f32 0x322BCC77#32 = (e : EReal) := by
  refine ⟨_, ?_, by simp [Ideal.ofBits, Ideal.ieee]; rfl⟩
  positivity

/-! ## Sums and maxima of reals inside the extended reals -/

/-- A finite sum of real numbers, taken in the extended reals, is the real sum. -/
theorem coe_sum {ι : Type*} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The larger of two reals, taken in the extended reals, is the real maximum. -/
theorem coe_max (a b : ℝ) : max (a : EReal) (b : EReal) = ((max a b : ℝ) : EReal) :=
  (EReal.coe_strictMono.monotone.map_max).symm

/-! ## The two arrangements -/

/-- The dot product of row `r` of `x` with row `c` of `w`. -/
def rowDot (x : (⟨2, ![4096, 4096]⟩ : Shape).Idx → EReal) (w : (⟨2, ![8192, 4096]⟩ : Shape).Idx → EReal)
    (r : Fin 4096) (c : Fin 8192) : EReal :=
  ∑ k : Fin 4096, x (ix2 r k) * w (ix2 c k)

/-- The clamped Euclidean norm of row `r` of an `[n, 4096]` array: `max (√(0 + ∑ₖ a(r, k)²)) ε`. -/
def clampedNorm {n : Nat} (a : (⟨2, ![n, 4096]⟩ : Shape).Idx → EReal) (r : Fin n) : EReal :=
  max (Ideal.sqrt (Ideal.ofBits .f32 0x00000000#32 + ∑ k : Fin 4096, a (ix2 r k) * a (ix2 r k)))
    (Ideal.ofBits .f32 0x322BCC77#32)

/-- The quotient form at `(r, c)`: the dot product over the product of the two clamped norms. -/
def quotientAt (x : (⟨2, ![4096, 4096]⟩ : Shape).Idx → EReal) (w : (⟨2, ![8192, 4096]⟩ : Shape).Idx → EReal)
    (r : Fin 4096) (c : Fin 8192) : EReal :=
  Ideal.div (rowDot x w r c) (clampedNorm x r * clampedNorm w c)

/-- The scaled form at `(r, c)`: the dot product times the product of the two reciprocal clamped norms. -/
def scaledAt (x : (⟨2, ![4096, 4096]⟩ : Shape).Idx → EReal) (w : (⟨2, ![8192, 4096]⟩ : Shape).Idx → EReal)
    (r : Fin 4096) (c : Fin 8192) : EReal :=
  rowDot x w r c * (Ideal.div (Ideal.ofBits .f32 0x3F800000#32) (clampedNorm x r)
    * Ideal.div (Ideal.ofBits .f32 0x3F800000#32) (clampedNorm w c))

/-- The whole `[4096, 8192]` array of cosine similarities, in the quotient form. -/
def cosine (x : (⟨2, ![4096, 4096]⟩ : Shape).Idx → EReal) (w : (⟨2, ![8192, 4096]⟩ : Shape).Idx → EReal) :
    (⟨2, ![4096, 8192]⟩ : Shape).Idx → EReal :=
  fun i => quotientAt x w (i 0) (i 1)

theorem cosine_ix2 (x : (⟨2, ![4096, 4096]⟩ : Shape).Idx → EReal) (w : (⟨2, ![8192, 4096]⟩ : Shape).Idx → EReal)
    (r : Fin 4096) (c : Fin 8192) : cosine x w (ix2 r c) = quotientAt x w r c := rfl

/-! ## The law -/

/-- Over real entries a clamped norm is a positive real: the sum of squares is real, its square root is real (or the
    bottom, were the sum negative), and the larger of that and the positive `ε` is a positive real. -/
theorem clampedNorm_pos_real {n : Nat} (a : (⟨2, ![n, 4096]⟩ : Shape).Idx → EReal) (ha : ∀ i, ∃ v : ℝ, a i = (v : EReal))
    (r : Fin n) : ∃ N : ℝ, 0 < N ∧ clampedNorm a r = (N : EReal) := by
  choose f hf using ha
  obtain ⟨e, he, hee⟩ := eps_real
  unfold clampedNorm
  simp only [hf, ← EReal.coe_mul]
  rw [coe_sum, Ideal.ofBits_zero_f32, zero_add, hee, Ideal.sqrt_coe]
  split
  · exact ⟨e, he, max_eq_right bot_le⟩
  · exact ⟨max _ e, lt_max_of_lt_right he, coe_max _ _⟩

/-- For positive reals `A`, `B` and any extended real `d`: `d · ((1 / A) · (1 / B)) = d / (A · B)`. -/
theorem scale_eq_div (d : EReal) {A B : ℝ} (hA : 0 < A) (hB : 0 < B) :
    d * (Ideal.div (Ideal.ofBits .f32 0x3F800000#32) (A : EReal) * Ideal.div (Ideal.ofBits .f32 0x3F800000#32) (B : EReal))
      = Ideal.div d ((A : EReal) * (B : EReal)) := by
  have h : ((1 : ℝ) : EReal) * ((1 / A : ℝ) : EReal) * (((1 : ℝ) : EReal) * ((1 / B : ℝ) : EReal))
      = ((1 / (A * B) : ℝ) : EReal) := by
    rw [← EReal.coe_mul, ← EReal.coe_mul, ← EReal.coe_mul]
    congr 1
    field_simp
  rw [one_real, Ideal.div_coe hA.ne', Ideal.div_coe hB.ne', ← EReal.coe_mul A B, Ideal.div_coe (mul_pos hA hB).ne', h]

/-- Over real entries the scaled form is the quotient form. -/
theorem scaledAt_eq_quotientAt (x : (⟨2, ![4096, 4096]⟩ : Shape).Idx → EReal) (w : (⟨2, ![8192, 4096]⟩ : Shape).Idx → EReal)
    (hx : ∀ i, ∃ v : ℝ, x i = (v : EReal)) (hw : ∀ i, ∃ v : ℝ, w i = (v : EReal)) (r : Fin 4096) (c : Fin 8192) :
    scaledAt x w r c = quotientAt x w r c := by
  obtain ⟨A, hA, eA⟩ := clampedNorm_pos_real x hx r
  obtain ⟨B, hB, eB⟩ := clampedNorm_pos_real w hw c
  unfold scaledAt quotientAt
  rw [eA, eB]
  exact scale_eq_div _ hA hB

end Cert.Cosine

end
-- ==== Proof.InverseNorms.lean ====
/-
  The two arrays of reciprocal clamped norms that the program computes before its kernel runs, as functions of the
  argument arrays, read at an index.

  For `x`: the column `[4096, 1]` whose entry `(p, 0)` is `1 / max (√(0 + ∑ₖ x(p, k)²)) ε` — the squares summed along each
  row, the sums laid out as a column, the square root and the clamp taken entrywise, and `1` divided by the result.
  For `w`: the same along each of its 8192 rows as a vector `[8192]`, then laid out as the row `[1, 8192]`.
  The change of format to bf16 and back before squaring is the identity on the extended reals.
-/
import proofs.«158054_j86062554677874_2_alg».proof.Proof.Gen.KernelIdeal
import proofs.«158054_j86062554677874_2_alg».proof.Proof.CosineSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Norms

open Cert.KernelIdeal Idealize.ShloMosaic Idealize.ShloMosaic.ValueIdx
open Cert.KernelIdeal.Facts₀

/-! ## The host operations read at an index -/

/-- A scalar constant broadcast to any shape reads, at every index, the constant's pattern. -/
theorem splat_apply {s : Shape} (h : S_.BroadcastsInDim s (![] : Fin 0 → Fin s.rank)) (b : BitVec 32) (i : s.Idx) :
    broadcastInDim s ![] h (constant (F := Ideal) S_ .f32 b) i = Ideal.ofBits .f32 b :=
  broadcastInDim_apply _ h _ i ix0 (fun a => a.elim0)

/-- A vector `[n]` laid out as the column `[n, 1]` reads, at `(p, u)`, the vector at `p`. -/
theorem column_apply {α : Type} {n : ℕ} (v : (⟨1, ![n]⟩ : Shape).Idx → α)
    (h : (⟨1, ![n]⟩ : Shape).BroadcastsInDim ⟨2, ![n, 1]⟩ (![0] : Fin 1 → Fin 2)) (p : Fin n) (u : Fin 1) :
    broadcastInDim ⟨2, ![n, 1]⟩ ![0] h v (ix2 p u) = v (ix1 p) :=
  broadcastInDim_apply _ h v (ix2 p u) (ix1 p) (fun a => match a with
    | ⟨0, _⟩ => by
      show p.val = if n = 1 then 0 else p.val
      split
      · have := p.isLt; omega
      · rfl)

/-- The host's sum along the rows of an `[n, 4096]` array, at row `p`: the initial value plus `∑ₖ y(p, k)`. -/
theorem rowSum_apply {n : ℕ} (y : FVec Ideal ⟨2, ![n, 4096]⟩ .f32) (init : FVec Ideal S_ .f32)
    (h : (⟨2, ![n, 4096]⟩ : Shape).ReducesTo [1] ⟨1, ![n]⟩) (hr : (⟨2, ![n, 4096]⟩ : Shape).Reduces [1] ⟨1, ![n]⟩)
    (hS : 0 < S_.numel) (p : Fin n) :
    Host.reduceAdd (F := Ideal) y init h hS (ix1 p) = init (Shape.Idx.first hS) + ∑ k : Fin 4096, y (ix2 p k) := by
  simp only [Host.reduceAdd, Ideal.hostReduceAdd_def]
  rw [Ideal.hostReduceAdd_single h hr]
  refine congrArg (_ + ·) (Finset.sum_congr rfl fun k _ => ?_)
  exact congrArg y (funext fun a => Fin.ext (by match a with | ⟨0, _⟩ => rfl | ⟨1, _⟩ => rfl))

/-! ## The reciprocal clamped norms -/

/-- The column of reciprocal clamped row norms of `x`. -/
def invNormX (X : FVec Ideal S4096x4096 .f32) : FVec Ideal S4096x1 .f32 :=
  Host.divf (F := Ideal) (broadcastInDim S4096x1 ![] bcast_S_S4096x1 (constant (F := Ideal) S_ .f32 0x3F800000#32))
    (maximumf
      (Host.sqrt (F := Ideal)
        (broadcastInDim S4096x1 ![0] bcast_S4096_S4096x1_0
          (Host.reduceAdd (F := Ideal)
            (mulf (extf .f32 (truncf .bf16 X bitsLt_bf16_f32) bitsLt_bf16_f32)
              (extf .f32 (truncf .bf16 X bitsLt_bf16_f32) bitsLt_bf16_f32))
            (constant (F := Ideal) S_ .f32 0x00000000#32) reducesTo_S4096x4096_S4096_d1 h_S_)))
      (broadcastInDim S4096x1 ![] bcast_S_S4096x1 (constant (F := Ideal) S_ .f32 0x322BCC77#32)))

/-- The vector of reciprocal clamped row norms of `w`. -/
def invNormWVec (W : FVec Ideal S8192x4096 .f32) : FVec Ideal S8192 .f32 :=
  Host.divf (F := Ideal) (broadcastInDim S8192 ![] bcast_S_S8192 (constant (F := Ideal) S_ .f32 0x3F800000#32))
    (maximumf
      (Host.sqrt (F := Ideal)
        (Host.reduceAdd (F := Ideal)
          (mulf (extf .f32 (truncf .bf16 W bitsLt_bf16_f32) bitsLt_bf16_f32)
            (extf .f32 (truncf .bf16 W bitsLt_bf16_f32) bitsLt_bf16_f32))
          (constant (F := Ideal) S_ .f32 0x00000000#32) reducesTo_S8192x4096_S8192_d1 h_S_))
      (broadcastInDim S8192 ![] bcast_S_S8192 (constant (F := Ideal) S_ .f32 0x322BCC77#32)))

/-- The same laid out as the row `[1, 8192]`. -/
def invNormW (W : FVec Ideal S8192x4096 .f32) : FVec Ideal S1x8192 .f32 :=
  shapeCast S1x8192 (invNormWVec W) shapeCasts_S8192_S1x8192

/-- Entry `(p, 0)` of the column: one over the clamped norm of row `p` of `x`. -/
theorem invNormX_apply (X : FVec Ideal S4096x4096 .f32) (p : Fin 4096) :
    invNormX X (ix2 p (0 : Fin 1)) = Ideal.div (Ideal.ofBits .f32 0x3F800000#32) (Cert.Cosine.clampedNorm X p) := by
  unfold invNormX Cert.Cosine.clampedNorm
  show Ideal.div (broadcastInDim S4096x1 ![] bcast_S_S4096x1 (constant (F := Ideal) S_ .f32 0x3F800000#32) (ix2 p (0 : Fin 1)))
      (max (Ideal.sqrt (broadcastInDim (s := S4096) S4096x1 ![0] bcast_S4096_S4096x1_0 _ (ix2 p (0 : Fin 1))))
        (broadcastInDim S4096x1 ![] bcast_S_S4096x1 (constant (F := Ideal) S_ .f32 0x322BCC77#32) (ix2 p (0 : Fin 1)))) = _
  rw [splat_apply, splat_apply, column_apply, rowSum_apply _ _ _ (by decide)]
  rfl

/-- Entry `q` of the vector: one over the clamped norm of row `q` of `w`. -/
theorem invNormWVec_apply (W : FVec Ideal S8192x4096 .f32) (q : Fin 8192) :
    invNormWVec W (ix1 q) = Ideal.div (Ideal.ofBits .f32 0x3F800000#32) (Cert.Cosine.clampedNorm W q) := by
  unfold invNormWVec Cert.Cosine.clampedNorm
  show Ideal.div (broadcastInDim S8192 ![] bcast_S_S8192 (constant (F := Ideal) S_ .f32 0x3F800000#32) (ix1 q))
      (max (Ideal.sqrt (Host.reduceAdd (F := Ideal) _ _ reducesTo_S8192x4096_S8192_d1 h_S_ (ix1 q)))
        (broadcastInDim S8192 ![] bcast_S_S8192 (constant (F := Ideal) S_ .f32 0x322BCC77#32) (ix1 q))) = _
  rw [splat_apply, splat_apply, rowSum_apply _ _ _ (by decide)]
  rfl

/-- Entry `(0, q)` of the row. -/
theorem invNormW_apply (W : FVec Ideal S8192x4096 .f32) (q : Fin 8192) :
    invNormW W (ix2 (0 : Fin 1) q) = Ideal.div (Ideal.ofBits .f32 0x3F800000#32) (Cert.Cosine.clampedNorm W q) := by
  unfold invNormW
  rw [shapeCast_a_1a_apply, invNormWVec_apply]

end Cert.KernelIdeal.Norms

end
-- ==== Proof.EntryArrays.lean ====
/-
  The four arrays the kernel's windows are cut from, as the program's operations before the kernel leave them: the two
  argument arrays changed to bf16 (the identity on the extended reals), the column of reciprocal clamped row norms of
  `x`, and the row of reciprocal clamped row norms of `w`.
-/
import proofs.«158054_j86062554677874_2_alg».proof.Proof.Gen.KernelIdeal.Frame
import proofs.«158054_j86062554677874_2_alg».proof.Proof.InverseNorms
import Idealize.ShloMosaic.Lib.StableHlo.Run

noncomputable section

namespace Cert.KernelIdeal.Entry

open Cert.KernelIdeal Cert.KernelIdeal.Gen Cert.KernelIdeal.Norms Idealize.ShloMosaic Idealize.ShloMosaic.TcCoe
open Idealize.SL.Sem Idealize.ShloMosaic.StableHlo

variable (m : (ℓ : Loc nD τ sig) → Buf (Elt Ideal) ℓ)

/-- The left operand's array is `x` itself. -/
theorem x_eq (c : Dev nD) : (V m c main_v0 : S4096x4096.Idx → EReal) = m ((c : Thread nD τ).loc main_arg0) := by
  dsimp only [Gen.V, Gen.hostOps0]; after_results; rfl

/-- The right operand's array is `w` itself. -/
theorem w_eq (c : Dev nD) : (V m c main_v1 : S8192x4096.Idx → EReal) = m ((c : Thread nD τ).loc main_arg1) := by
  dsimp only [Gen.V, Gen.hostOps0]; after_results; rfl

/-- The column operand is the reciprocal clamped row norms of `x`. -/
theorem u_eq (c : Dev nD) : (V m c main_v14 : S4096x1.Idx → EReal) = invNormX (m ((c : Thread nD τ).loc main_arg0)) := by
  dsimp only [Gen.V, Gen.hostOps0]; after_results; rfl

/-- The row operand is the reciprocal clamped row norms of `w`. -/
theorem r_eq (c : Dev nD) : (V m c main_v19 : S1x8192.Idx → EReal) = invNormW (m ((c : Thread nD τ).loc main_arg1)) := by
  dsimp only [Gen.V, Gen.hostOps0]; after_results; rfl

end Cert.KernelIdeal.Entry

end
-- ==== Proof.FiniteEntries.lean ====
/-
  The precondition read back: when `finite_inputs` answers one, every entry of both argument arrays is a real number.

  The predicate is `all (|x| < +∞) ∧ all (|w| < +∞)`, each `all` a reduction by `and` over every axis. A conjunction that
  is one has both conjuncts one; a reduction by `and` that is one met only ones; and an extended real whose absolute
  value `max a (-a)` lies strictly below `+∞` is neither infinity, so it is a real number.
-/
import proofs.«158054_j86062554677874_2_alg».proof.Pre_finite_inputs
import proofs.«158054_j86062554677874_2_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.FiniteEntries

open Idealize.ShloMosaic Idealize.ShloMosaic.ValueIdx

instance : Subsingleton Cert.Pre_finite_inputs.S_.Idx := ⟨fun a b => funext fun d => d.elim0⟩

/-- The f32 pattern of `+∞` denotes the top of the extended reals. -/
theorem inf_top : Ideal.ofBits .f32 0x7F800000#32 = ⊤ := by
  simp [Ideal.ofBits, Ideal.ieee]

/-- An extended real whose absolute value is strictly below `+∞` is a real number. -/
theorem real_of_abs_lt_top (a : EReal)
    (h : FloatOps.cmpf (F := Ideal) (φ := .f32) .olt (FloatOps.hostAbsf (F := Ideal) (φ := .f32) a) (Ideal.ofBits .f32 0x7F800000#32) = 1#1) :
    ∃ v : ℝ, a = (v : EReal) := by
  rw [Ideal.hostAbsf_def, Ideal.absf_def, Ideal.cmpf_def, inf_top] at h
  induction a using EReal.rec with
  | bot => exact absurd h (by simp [Ideal.cmp])
  | top => exact absurd h (by simp [Ideal.cmp])
  | coe r => exact ⟨r, rfl⟩

/-- A scalar constant broadcast to any shape reads, at every index, the constant's pattern. -/
theorem splat_apply {s : Shape} (h : Cert.Pre_finite_inputs.S_.BroadcastsInDim s (![] : Fin 0 → Fin s.rank)) (b : BitVec 32) (i : s.Idx) :
    broadcastInDim s ![] h (constant (F := Ideal) Cert.Pre_finite_inputs.S_ .f32 b) i = Ideal.ofBits .f32 b :=
  broadcastInDim_apply _ h _ i ix0 (fun a => a.elim0)

/-- THE PRECONDITION GIVES REAL ENTRIES, in both argument arrays. -/
theorem real_of_pre (X : FVec Ideal Cert.Pre_finite_inputs.S4096x4096 .f32) (W : FVec Ideal Cert.Pre_finite_inputs.S8192x4096 .f32)
    (h : Cert.Pre_finite_inputs.fn (F := Ideal) X W = fun _ => 1#1) :
    (∀ i, ∃ v : ℝ, X i = (v : EReal)) ∧ (∀ i, ∃ v : ℝ, W i = (v : EReal)) := by
  have h0 := congrFun h ix0
  dsimp only [Cert.Pre_finite_inputs.fn] at h0
  obtain ⟨h1, h2⟩ := IntOp.andi_eq_one.1 h0
  refine ⟨fun i => ?_, fun i => ?_⟩
  · have e := Host.reduce_andi_all _ _ _ _ _ h1 i
    refine real_of_abs_lt_top (X i) ?_
    rw [← splat_apply Cert.Pre_finite_inputs.Facts.bcast_S_S4096x4096 _ i]
    exact e
  · have e := Host.reduce_andi_all _ _ _ _ _ h2 i
    refine real_of_abs_lt_top (W i) ?_
    rw [← splat_apply Cert.Pre_finite_inputs.Facts.bcast_S_S8192x4096 _ i]
    exact e

end Cert.FiniteEntries

end
-- ==== Proof.KernelCosine.lean ====
/-
  The kernel program's result is the array of cosine similarities, when every argument entry is a real number.

  The kernel leaves `(∑ₖ X(r, k) · W(c, k)) · (U(r, 0) · R(0, c))` at `(r, c)`, where `X` and `W` are the arguments
  themselves (the change of format is the identity), `U(r, 0)` is one over the clamped norm of row `r` of `x` and `R(0, c)`
  one over the clamped norm of row `c` of `w`. That is the scaled form of the cosine, which over real entries is the
  quotient form.
-/
import proofs.«158054_j86062554677874_2_alg».proof.Defs
import proofs.«158054_j86062554677874_2_alg».proof.Proof.CosineBlocks
import proofs.«158054_j86062554677874_2_alg».proof.Proof.EntryArrays
import proofs.«158054_j86062554677874_2_alg».proof.Proof.CosineSpec
import proofs.«158054_j86062554677874_2_alg».proof.Proof.FiniteEntries

noncomputable section

namespace Cert.KernelIdeal.Cosine

open Cert.KernelIdeal Cert.KernelIdeal.Gen Cert.KernelIdeal.Block Cert.KernelIdeal.Norms Idealize.ShloMosaic
open Idealize.ShloMosaic.TcCoe Idealize.SL.Sem Idealize.ShloMosaic.ValueIdx

/-- Over real entries, the scaled product with the two arrays of reciprocal clamped norms is the cosine array. -/
theorem scaledProduct_eq_cosine (X : S4096x4096.Idx → EReal) (W : S8192x4096.Idx → EReal)
    (hx : ∀ i, ∃ v : ℝ, X i = (v : EReal)) (hw : ∀ i, ∃ v : ℝ, W i = (v : EReal)) :
    scaledProduct X W (invNormX X) (invNormW W) = Cert.Cosine.cosine X W := by
  funext i
  obtain ⟨r, q, rfl⟩ : ∃ (r : Fin 4096) (q : Fin 8192), i = ix2 r q := ⟨i 0, i 1, eq_ix2 i⟩
  rw [Cert.Cosine.cosine_ix2, ← Cert.Cosine.scaledAt_eq_quotientAt X W hx hw r q]
  show (∑ k : Fin 4096, X (ix2 r k) * W (ix2 q k)) * (invNormX X (ix2 r (0 : Fin 1)) * invNormW W (ix2 (0 : Fin 1) q)) = _
  rw [invNormX_apply, invNormW_apply]
  rfl

variable (m : (ℓ : Loc nD τ sig) → Buf (Elt Ideal) ℓ) (ρ : Dev nD → PrngReg)

/-- THE KERNEL PROGRAM'S RUN under the precondition: its result is the cosine array of its arguments. -/
theorem run (hpre : Cert.Pre_KernelIdeal m) :
    θ_run defs (onTc (τ := τ) (main (F := Ideal))) ⟨m, fun _ => 0, ρ⟩ fun r => ∀ c : Dev nD,
      r.2.mem ((c : Thread nD τ).loc main_v20)
        = Cert.Cosine.cosine (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨(h c).1.trans ?_, (h c).2⟩) (Cert.KernelIdeal.Blocks.run m ρ)
  obtain ⟨hx, hw⟩ := Cert.FiniteEntries.real_of_pre _ _ (hpre c)
  rw [Cert.KernelIdeal.Entry.x_eq, Cert.KernelIdeal.Entry.w_eq, Cert.KernelIdeal.Entry.u_eq, Cert.KernelIdeal.Entry.r_eq]
  exact scaledProduct_eq_cosine _ _ hx hw

end Cert.KernelIdeal.Cosine

end
-- ==== Proof.ReferenceCosine.lean ====
/-
  The reference's result is the array of cosine similarities in the quotient form.

  The reference squares and sums each row of `x` and of `w`, takes square roots, clamps both norms from below by `ε`,
  contracts the shared last axis of `x` and `w`, and divides each dot product by the product of the row's and the
  column's clamped norm. Read one operation at a time at the entry `(r, c)`, that is
  `(∑ₖ x(r, k) · w(c, k)) / (N(x, r) · N(w, c))`.
-/
import proofs.«158054_j86062554677874_2_alg».proof.Proof.Gen.ReferenceIdeal.Read
import proofs.«158054_j86062554677874_2_alg».proof.Proof.CosineSpec

noncomputable section

namespace Cert.ReferenceIdeal.Cosine

open Cert.ReferenceIdeal Cert.ReferenceIdeal.Read Idealize.ShloMosaic Idealize.ShloMosaic.ValueIdx

/-! ## The operand indices, by coordinates -/

theorem lidx_eq (r : Fin 4096) (c : Fin 8192) (k : Fin 4096) : lidx_main_v6 (ix2 r c) k = ix2 r k :=
  funext fun a => Fin.ext (by match a with | ⟨0, _⟩ => rfl | ⟨1, _⟩ => rfl)
theorem ridx_eq (r : Fin 4096) (c : Fin 8192) (k : Fin 4096) : ridx_main_v6 (ix2 r c) k = ix2 c k :=
  funext fun a => Fin.ext (by match a with | ⟨0, _⟩ => rfl | ⟨1, _⟩ => rfl)
theorem idx_v8_eq (r : Fin 4096) (c : Fin 8192) : idx_main_v8 (ix2 r c) = ix2 r (0 : Fin 1) :=
  funext fun a => Fin.ext (by match a with | ⟨0, _⟩ => rfl | ⟨1, _⟩ => rfl)
theorem idx_v9_eq (r : Fin 4096) (c : Fin 8192) : idx_main_v9 (ix2 r c) = ix2 (0 : Fin 1) c :=
  funext fun a => Fin.ext (by match a with | ⟨0, _⟩ => rfl | ⟨1, _⟩ => rfl)
theorem idx_v7_eq (u : Fin 1) (c : Fin 8192) : idx_main_v7 (ix2 u c) = ix1 c :=
  funext fun a => Fin.ext (by match a with | ⟨0, _⟩ => rfl)
theorem idx_call0_v2_eq (r : Fin 4096) (u : Fin 1) : idx_main_call0_v2 (ix2 r u) = ix1 r :=
  funext fun a => Fin.ext (by match a with | ⟨0, _⟩ => rfl)
theorem idx_call0_v1_eq (r : Fin 4096) (k : Fin 4096) : idx_main_call0_v1 (ix1 r) k = ix2 r k :=
  funext fun a => Fin.ext (by match a with | ⟨0, _⟩ => rfl | ⟨1, _⟩ => rfl)
theorem idx_call1_v1_eq (c : Fin 8192) (k : Fin 4096) : idx_main_call1_v1 (ix1 c) k = ix2 c k :=
  funext fun a => Fin.ext (by match a with | ⟨0, _⟩ => rfl | ⟨1, _⟩ => rfl)

/-! ## The stages -/

/-- The clamped norm column of `x`, at `(r, 0)`. -/
theorem normX_apply (x0 : FVec Ideal S4096x4096 .f32) (r : Fin 4096) :
    val_main_v2 (F := Ideal) x0 (ix2 r (0 : Fin 1)) = Cert.Cosine.clampedNorm x0 r := by
  rw [val_main_v2_apply, val_main_v0_apply, val_main_call0_v2_apply, idx_call0_v2_eq, val_main_call0_v1_apply,
    val_main_v1_apply, val_main_cst_apply, val_main_call0_cst_apply]
  simp only [idx_call0_v1_eq, val_main_call0_v0_apply]
  rfl

/-- The clamped norm vector of `w`, at `c`. -/
theorem normW_apply (x1 : FVec Ideal S8192x4096 .f32) (c : Fin 8192) :
    val_main_v5 (F := Ideal) x1 (ix1 c) = Cert.Cosine.clampedNorm x1 c := by
  rw [val_main_v5_apply, val_main_v3_apply, val_main_call1_v1_apply, val_main_v4_apply, val_main_cst_0_apply,
    val_main_call1_cst_apply]
  simp only [idx_call1_v1_eq, val_main_call1_v0_apply]
  rfl

/-- The dot products, at `(r, c)`. -/
theorem dot_apply (x0 : FVec Ideal S4096x4096 .f32) (x1 : FVec Ideal S8192x4096 .f32) (r : Fin 4096) (c : Fin 8192) :
    val_main_v6 (F := Ideal) x0 x1 (ix2 r c) = Cert.Cosine.rowDot x0 x1 r c := by
  rw [val_main_v6_apply]
  simp only [lidx_eq, ridx_eq]
  rfl

/-- THE REFERENCE'S RESULT is the cosine array. -/
theorem result_eq_cosine (x0 : FVec Ideal S4096x4096 .f32) (x1 : FVec Ideal S8192x4096 .f32) :
    val_main_v11 (F := Ideal) x0 x1 = Cert.Cosine.cosine x0 x1 := by
  funext i
  obtain ⟨r, c, rfl⟩ : ∃ (r : Fin 4096) (c : Fin 8192), i = ix2 r c := ⟨i 0, i 1, eq_ix2 i⟩
  rw [Cert.Cosine.cosine_ix2, val_main_v11_apply, val_main_v10_apply, val_main_v8_apply, val_main_v9_apply, idx_v8_eq,
    idx_v9_eq, val_main_v7_apply, idx_v7_eq, normX_apply, normW_apply, dot_apply]
  rfl

end Cert.ReferenceIdeal.Cosine

end
-- ==== Proof.lean ====
/-
  The kernel computes, for every row `r` of `x : [4096, 4096]` and every row `c` of `w : [8192, 4096]`, the cosine
  similarity in the scaled form `(∑ₖ x(r, k) · w(c, k)) · ((1 / N(x, r)) · (1 / N(w, c)))`, with
  `N(a, r) = max (√(∑ₖ a(r, k)²)) ε` the clamped row norm: the reciprocals are taken before the kernel runs, the
  contraction and the scaling inside it, block by block over an 8 × 8 grid. The reference computes the quotient form
  `(∑ₖ x(r, k) · w(c, k)) / (N(x, r) · N(w, c))`. On the extended reals a change of float format is the identity and
  the two contractions are the same sum; the two forms agree when every argument entry is a real number, which the
  precondition gives: each clamped norm is then a positive real, and dividing by a product of positive reals is
  multiplying by the product of their reciprocals.

  The three frames are the programs' runs; the idealized kernel is the kernel's own text (no rewrite to account for).
-/
import proofs.«158054_j86062554677874_2_alg».proof.Defs
import proofs.«158054_j86062554677874_2_alg».proof.Proof.Gen.Kernel
import proofs.«158054_j86062554677874_2_alg».proof.Proof.Gen.Kernel.Skeleton
import proofs.«158054_j86062554677874_2_alg».proof.Proof.Gen.Kernel.Launch
import proofs.«158054_j86062554677874_2_alg».proof.Proof.Gen.Kernel.Points
import proofs.«158054_j86062554677874_2_alg».proof.Proof.Gen.Kernel.Frame
import proofs.«158054_j86062554677874_2_alg».proof.Proof.Gen.KernelIdeal
import proofs.«158054_j86062554677874_2_alg».proof.Proof.Gen.KernelIdeal.Skeleton
import proofs.«158054_j86062554677874_2_alg».proof.Proof.Gen.KernelIdeal.Launch
import proofs.«158054_j86062554677874_2_alg».proof.Proof.Gen.KernelIdeal.Points
import proofs.«158054_j86062554677874_2_alg».proof.Proof.Gen.KernelIdeal.Frame
import proofs.«158054_j86062554677874_2_alg».proof.Proof.Gen.ReferenceIdeal
import proofs.«158054_j86062554677874_2_alg».proof.Proof.Gen.KernelIdeal.Value
import proofs.«158054_j86062554677874_2_alg».proof.Proof.Gen.ReferenceIdeal.Run
import proofs.«158054_j86062554677874_2_alg».proof.Proof.Gen.ReferenceIdeal.Read
import proofs.«158054_j86062554677874_2_alg».proof.Proof.Gen.Pre_finite_inputs
import proofs.«158054_j86062554677874_2_alg».proof.Proof.KernelCosine
import proofs.«158054_j86062554677874_2_alg».proof.Proof.ReferenceCosine
import Idealize.ShloMosaic.Adequacy
import Idealize.ShloMosaic.Init

noncomputable section

namespace Cert.Proof

open Idealize.ShloMosaic Idealize.SL.Sem Cert.Kernel

/-- The word-level kernel program runs and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the cosine array of the (agreeing) arguments. -/
theorem algebraic : Cert.algebraic_KernelIdeal_ReferenceIdeal := by
  intro m ρ m' ρ' hpre hagree
  refine ⟨_, Cert.KernelIdeal.Cosine.run m ρ hpre, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v11_eq, Cert.ReferenceIdeal.Cosine.result_eq_cosine, (hagree c).1,
    (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
